-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 120
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S_, .f32⟩
  | .hbm, ⟨13, _⟩ => ⟨S50000, .f32⟩
  | .hbm, ⟨14, _⟩ => ⟨S_, .i32⟩
  | .hbm, ⟨15, _⟩ => ⟨S850000, .i32⟩
  | .hbm, ⟨16, _⟩ => ⟨S850000, .i1⟩
  | .hbm, ⟨17, _⟩ => ⟨S_, .i32⟩
  | .hbm, ⟨18, _⟩ => ⟨S850000, .i32⟩
  | .hbm, ⟨19, _⟩ => ⟨S850000, .i32⟩
  | .hbm, ⟨20, _⟩ => ⟨S850000, .i32⟩
  | .hbm, ⟨21, _⟩ => ⟨S850000x1, .i32⟩
  | .hbm, ⟨22, _⟩ => ⟨S_, .f32⟩
  | .hbm, ⟨23, _⟩ => ⟨S850000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .i1⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x128, .f32⟩
  | .hbm, ⟨34, _⟩ => ⟨S50000, .i32⟩
  | .hbm, ⟨35, _⟩ => ⟨S850000, .i32⟩
  | .hbm, ⟨36, _⟩ => ⟨S850000, .i32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000, .f32⟩
  | .hbm, ⟨55, _⟩ => ⟨S850000, .f32⟩
  | .hbm, ⟨56, _⟩ => ⟨S_, .i32⟩
  | .hbm, ⟨57, _⟩ => ⟨S850000, .i32⟩
  | .hbm, ⟨58, _⟩ => ⟨S850000, .i1⟩
  | .hbm, ⟨59, _⟩ => ⟨S_, .i32⟩
  | .hbm, ⟨60, _⟩ => ⟨S850000, .i32⟩
  | .hbm, ⟨61, _⟩ => ⟨S850000, .i32⟩
  | .hbm, ⟨62, _⟩ => ⟨S850000, .i32⟩
  | .hbm, ⟨63, _⟩ => ⟨S850000x1, .i32⟩
  | .hbm, ⟨64, _⟩ => ⟨S850000x128, .f32⟩
  | .hbm, ⟨65, _⟩ => ⟨S850000x1, .f32⟩
  | .hbm, ⟨66, _⟩ => ⟨S850000x128, .f32⟩
  | .hbm, ⟨67, _⟩ => ⟨S850000x128, .f32⟩
  | .hbm, ⟨68, _⟩ => ⟨S_, .f32⟩
  | .hbm, ⟨69, _⟩ => ⟨S50000x128, .f32⟩
  | .hbm, ⟨70, _⟩ => ⟨S850000x1, .i32⟩
  | .hbm, ⟨71, _⟩ => ⟨S50000x128, .f32⟩
  | .hbm, ⟨72, _⟩ => ⟨S1x128, .f32⟩
  | .hbm, ⟨73, _⟩ => ⟨S50000x128, .f32⟩
  | .hbm, ⟨74, _⟩ => ⟨S50000x128, .f32⟩
  | .hbm, ⟨75, _⟩ => ⟨S_, .f32⟩
  | .hbm, ⟨76, _⟩ => ⟨S50000x128, .f32⟩
  | .hbm, ⟨77, _⟩ => ⟨S50000x128, .f32⟩
  | .hbm, ⟨78, _⟩ => ⟨S50000x64, .f32⟩
  | .hbm, ⟨79, _⟩ => ⟨S50000, .i32⟩
  | .hbm, ⟨80, _⟩ => ⟨S850000, .i32⟩
  | .hbm, ⟨81, _⟩ => ⟨S850000, .i32⟩
  | .hbm, ⟨82, _⟩ => ⟨S_, .i32⟩
  | .hbm, ⟨83, _⟩ => ⟨S850000, .i32⟩
  | .hbm, ⟨84, _⟩ => ⟨S850000, .i1⟩
  | .hbm, ⟨85, _⟩ => ⟨S_, .i32⟩
  | .hbm, ⟨86, _⟩ => ⟨S850000, .i32⟩
  | .hbm, ⟨87, _⟩ => ⟨S850000, .i32⟩
  | .hbm, ⟨88, _⟩ => ⟨S850000, .i32⟩
  | .hbm, ⟨89, _⟩ => ⟨S850000x1, .i32⟩
  | .hbm, ⟨90, _⟩ => ⟨S850000, .f32⟩
  | .hbm, ⟨91, _⟩ => ⟨S_, .i32⟩
  | .hbm, ⟨92, _⟩ => ⟨S850000, .i32⟩
  | .hbm, ⟨93, _⟩ => ⟨S850000, .i1⟩
  | .hbm, ⟨94, _⟩ => ⟨S_, .i32⟩
  | .hbm, ⟨95, _⟩ => ⟨S850000, .i32⟩
  | .hbm, ⟨96, _⟩ => ⟨S850000, .i32⟩
  | .hbm, ⟨97, _⟩ => ⟨S850000, .i32⟩
  | .hbm, ⟨98, _⟩ => ⟨S850000x1, .i32⟩
  | .hbm, ⟨99, _⟩ => ⟨S850000, .f32⟩
  | .hbm, ⟨100, _⟩ => ⟨S850000, .f32⟩
  | .hbm, ⟨101, _⟩ => ⟨S_, .i32⟩
  | .hbm, ⟨102, _⟩ => ⟨S850000, .i32⟩
  | .hbm, ⟨103, _⟩ => ⟨S850000, .i1⟩
  | .hbm, ⟨104, _⟩ => ⟨S_, .i32⟩
  | .hbm, ⟨105, _⟩ => ⟨S850000, .i32⟩
  | .hbm, ⟨106, _⟩ => ⟨S850000, .i32⟩
  | .hbm, ⟨107, _⟩ => ⟨S850000, .i32⟩
  | .hbm, ⟨108, _⟩ => ⟨S850000x1, .i32⟩
  | .hbm, ⟨109, _⟩ => ⟨S850000x64, .f32⟩
  | .hbm, ⟨110, _⟩ => ⟨S850000x1, .f32⟩
  | .hbm, ⟨111, _⟩ => ⟨S850000x64, .f32⟩
  | .hbm, ⟨112, _⟩ => ⟨S850000x64, .f32⟩
  | .hbm, ⟨113, _⟩ => ⟨S_, .f32⟩
  | .hbm, ⟨114, _⟩ => ⟨S50000x64, .f32⟩
  | .hbm, ⟨115, _⟩ => ⟨S850000x1, .i32⟩
  | .hbm, ⟨116, _⟩ => ⟨S50000x64, .f32⟩
  | .hbm, ⟨117, _⟩ => ⟨S1x64, .f32⟩
  | .hbm, ⟨118, _⟩ => ⟨S50000x64, .f32⟩
  | .hbm, ⟨119, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_8 : Ref sig .tc := ⟨.hbm, 56, rfl⟩
abbrev main_v38 : Ref sig .tc := ⟨.hbm, 57, rfl⟩
abbrev main_v39 : Ref sig .tc := ⟨.hbm, 58, rfl⟩
abbrev main_c_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_call1_cst : Ref sig .tc := ⟨.hbm, 75, rfl⟩
abbrev main_call1_v0 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_c_11 : Ref sig .tc := ⟨.hbm, 82, rfl⟩
abbrev main_v59 : Ref sig .tc := ⟨.hbm, 83, rfl⟩
abbrev main_v60 : Ref sig .tc := ⟨.hbm, 84, rfl⟩
abbrev main_c_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_13 : Ref sig .tc := ⟨.hbm, 91, rfl⟩
abbrev main_v66 : Ref sig .tc := ⟨.hbm, 92, rfl⟩
abbrev main_v67 : Ref sig .tc := ⟨.hbm, 93, rfl⟩
abbrev main_c_14 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_c_15 : Ref sig .tc := ⟨.hbm, 101, rfl⟩
abbrev main_v74 : Ref sig .tc := ⟨.hbm, 102, rfl⟩
abbrev main_v75 : Ref sig .tc := ⟨.hbm, 103, rfl⟩
abbrev main_c_16 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_17 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  dot_S5000x128_S128x128_S5000x128_1_0_0_1_n_n_wf : DotDims.WF S5000x128 S128x128 S5000x128 [1] [0] [0] [1] [] []
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v54) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v55) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 139
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x64, .f32⟩
  | 5 => ⟨S64, .f32⟩
  | 6 => ⟨S1x800000, .i32⟩
  | 7 => ⟨S800000, .i32⟩
  | 8 => ⟨S1x800000, .i32⟩
  | 9 => ⟨S800000, .i32⟩
  | 10 => ⟨S50000x128, .f32⟩
  | 11 => ⟨S50000, .i32⟩
  | 12 => ⟨S850000, .i32⟩
  | 13 => ⟨S850000, .i32⟩
  | 14 => ⟨S_, .f32⟩
  | 15 => ⟨S50000, .f32⟩
  | 16 => ⟨S_, .i32⟩
  | 17 => ⟨S850000, .i32⟩
  | 18 => ⟨S850000, .i1⟩
  | 19 => ⟨S_, .i32⟩
  | 20 => ⟨S850000, .i32⟩
  | 21 => ⟨S850000, .i32⟩
  | 22 => ⟨S850000, .i32⟩
  | 23 => ⟨S850000x1, .i32⟩
  | 24 => ⟨S_, .f32⟩
  | 25 => ⟨S850000, .f32⟩
  | 26 => ⟨S50000, .f32⟩
  | 27 => ⟨S_, .f32⟩
  | 28 => ⟨S50000, .f32⟩
  | 29 => ⟨S50000, .i1⟩
  | 30 => ⟨S50000, .f32⟩
  | 31 => ⟨S_, .f32⟩
  | 32 => ⟨S_, .f32⟩
  | 33 => ⟨S50000, .f32⟩
  | 34 => ⟨S50000, .f32⟩
  | 35 => ⟨S_, .i32⟩
  | 36 => ⟨S850000, .i32⟩
  | 37 => ⟨S850000, .i1⟩
  | 38 => ⟨S_, .i32⟩
  | 39 => ⟨S850000, .i32⟩
  | 40 => ⟨S850000, .i32⟩
  | 41 => ⟨S850000, .i32⟩
  | 42 => ⟨S850000x1, .i32⟩
  | 43 => ⟨S850000, .f32⟩
  | 44 => ⟨S_, .i32⟩
  | 45 => ⟨S850000, .i32⟩
  | 46 => ⟨S850000, .i1⟩
  | 47 => ⟨S_, .i32⟩
  | 48 => ⟨S850000, .i32⟩
  | 49 => ⟨S850000, .i32⟩
  | 50 => ⟨S850000, .i32⟩
  | 51 => ⟨S850000x1, .i32⟩
  | 52 => ⟨S850000, .f32⟩
  | 53 => ⟨S850000, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000x128, .f32⟩
  | 63 => ⟨S850000x1, .f32⟩
  | 64 => ⟨S850000x128, .f32⟩
  | 65 => ⟨S850000x128, .f32⟩
  | 66 => ⟨S_, .f32⟩
  | 67 => ⟨S50000x128, .f32⟩
  | 68 => ⟨S850000x1, .i32⟩
  | 69 => ⟨S50000x128, .f32⟩
  | 70 => ⟨S1x128, .f32⟩
  | 71 => ⟨S50000x128, .f32⟩
  | 72 => ⟨S50000x128, .f32⟩
  | 73 => ⟨S_, .f32⟩
  | 74 => ⟨S50000x128, .f32⟩
  | 75 => ⟨S50000x128, .f32⟩
  | 76 => ⟨S50000x64, .f32⟩
  | 77 => ⟨S50000, .i32⟩
  | 78 => ⟨S850000, .i32⟩
  | 79 => ⟨S850000, .i32⟩
  | 80 => ⟨S_, .f32⟩
  | 81 => ⟨S50000, .f32⟩
  | 82 => ⟨S_, .i32⟩
  | 83 => ⟨S850000, .i32⟩
  | 84 => ⟨S850000, .i1⟩
  | 85 => ⟨S_, .i32⟩
  | 86 => ⟨S850000, .i32⟩
  | 87 => ⟨S850000, .i32⟩
  | 88 => ⟨S850000, .i32⟩
  | 89 => ⟨S850000x1, .i32⟩
  | 90 => ⟨S_, .f32⟩
  | 91 => ⟨S850000, .f32⟩
  | 92 => ⟨S50000, .f32⟩
  | 93 => ⟨S_, .f32⟩
  | 94 => ⟨S50000, .f32⟩
  | 95 => ⟨S50000, .i1⟩
  | 96 => ⟨S50000, .f32⟩
  | 97 => ⟨S_, .f32⟩
  | 98 => ⟨S_, .f32⟩
  | 99 => ⟨S50000, .f32⟩
  | 100 => ⟨S50000, .f32⟩
  | 101 => ⟨S_, .i32⟩
  | 102 => ⟨S850000, .i32⟩
  | 103 => ⟨S850000, .i1⟩
  | 104 => ⟨S_, .i32⟩
  | 105 => ⟨S850000, .i32⟩
  | 106 => ⟨S850000, .i32⟩
  | 107 => ⟨S850000, .i32⟩
  | 108 => ⟨S850000x1, .i32⟩
  | 109 => ⟨S850000, .f32⟩
  | 110 => ⟨S_, .i32⟩
  | 111 => ⟨S850000, .i32⟩
  | 112 => ⟨S850000, .i1⟩
  | 113 => ⟨S_, .i32⟩
  | 114 => ⟨S850000, .i32⟩
  | 115 => ⟨S850000, .i32⟩
  | 116 => ⟨S850000, .i32⟩
  | 117 => ⟨S850000x1, .i32⟩
  | 118 => ⟨S850000, .f32⟩
  | 119 => ⟨S850000, .f32⟩
  | 120 => ⟨S_, .i32⟩
  | 121 => ⟨S850000, .i32⟩
  | 122 => ⟨S850000, .i1⟩
  | 123 => ⟨S_, .i32⟩
  | 124 => ⟨S850000, .i32⟩
  | 125 => ⟨S850000, .i32⟩
  | 126 => ⟨S850000, .i32⟩
  | 127 => ⟨S850000x1, .i32⟩
  | _ => ⟨S50000x128, .f32⟩

abbrev hbmTy0_1 (i : Nat) : BufTy := match i % 128 with
  | 0 => ⟨S850000x64, .f32⟩
  | 1 => ⟨S850000x1, .f32⟩
  | 2 => ⟨S850000x64, .f32⟩
  | 3 => ⟨S850000x64, .f32⟩
  | 4 => ⟨S_, .f32⟩
  | 5 => ⟨S50000x64, .f32⟩
  | 6 => ⟨S850000x1, .i32⟩
  | 7 => ⟨S50000x64, .f32⟩
  | 8 => ⟨S1x64, .f32⟩
  | 9 => ⟨S50000x64, .f32⟩
  | 10 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_c_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_call1_cst : Ref sig .tc := ⟨.hbm, 73, rfl⟩
abbrev main_call1_v0 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_c_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_14 : Ref sig .tc := ⟨.hbm, 90, rfl⟩
abbrev main_v64 : Ref sig .tc := ⟨.hbm, 91, rfl⟩
abbrev main_v65 : Ref sig .tc := ⟨.hbm, 92, rfl⟩
abbrev main_cst_15 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_16 : Ref sig .tc := ⟨.hbm, 97, rfl⟩
abbrev main_call2_v0 : Ref sig .tc := ⟨.hbm, 98, rfl⟩
abbrev main_call2_v1 : Ref sig .tc := ⟨.hbm, 99, rfl⟩
abbrev main_v69 : Ref sig .tc := ⟨.hbm, 100, rfl⟩
abbrev main_c_17 : Ref sig .tc := ⟨.hbm, 101, rfl⟩
abbrev main_v70 : Ref sig .tc := ⟨.hbm, 102, rfl⟩
abbrev main_v71 : Ref sig .tc := ⟨.hbm, 103, rfl⟩
abbrev main_c_18 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_c_19 : Ref sig .tc := ⟨.hbm, 110, rfl⟩
abbrev main_v77 : Ref sig .tc := ⟨.hbm, 111, rfl⟩
abbrev main_v78 : Ref sig .tc := ⟨.hbm, 112, rfl⟩
abbrev main_c_20 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_c_21 : Ref sig .tc := ⟨.hbm, 120, rfl⟩
abbrev main_v85 : Ref sig .tc := ⟨.hbm, 121, rfl⟩
abbrev main_v86 : Ref sig .tc := ⟨.hbm, 122, rfl⟩
abbrev main_c_22 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_23 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  The idealized kernel's run with its result named.

  Every weakly fair execution of @main terminates, nothing faulting, and in every final state each buffer the core
  holds outside the launches' scratch is at the contents the walk through @main's segments ends at: the host
  stretches applied in order, each launch's arrays at what its write-backs leave.  Read at the result buffer this
  names the result; read at an argument's buffer it is the launch contents, since no segment writes an argument.
-/
import proofs.«171577_j8967891714538_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, every argument as launched. -/
theorem run : θ_run defs (onTc (τ := τ) (main (F := F))) ⟨m, fun _ => 0, ρ⟩ (fun r => ∀ c : Dev nD,
      r.2.mem ((c.tc : Thread nD τ).loc main_v89) = W7 m ρ c (Proc.devRef .tc main_v89)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v89 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Named

end
-- ==== Proof.LibDot.lean ====
/- A general lemma for reading a plain matrix product on the host at an index, at the ideal values: rows by columns,
   the sum over the one contracted coordinate. -/
import Idealize.ShloMosaic.PureOps.Ideal.Laws
import Idealize.ShloMosaic.Lib.ValueIdx

open scoped BigOperators

namespace Cert.LibDot

open Idealize.ShloMosaic Idealize.ShloMosaic.ValueIdx

/-- `dot_general` of `[M, K]` by `[K, N]` (contracting the left operand's axis 1 with the right one's axis 0) at `(r, c)`:
    the sum over `d` of `l[r, d] * w[d, c]`. -/
theorem dotGeneral_plain_apply {M K N : Nat} {φ₁ φ₂ : FTy} (prec : Option ContractPrecision) (sched : HostSchedule)
    (l : FVec Ideal ⟨2, ![M, K]⟩ φ₁) (w : FVec Ideal ⟨2, ![K, N]⟩ φ₂) (r : Fin M) (c : Fin N) :
    FloatOps.dotGeneral (DotDims.plain M K N) prec sched l w (ix2 r c) = ∑ d : Fin K, l (ix2 r d) * w (ix2 d c) := by
  rw [Ideal.dotGeneral_apply]
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun d _ => ?_
  congr 1
  · refine congrArg l (funext fun a => Fin.ext ?_)
    match a with
    | ⟨0, _⟩ => rfl
    | ⟨1, _⟩ => exact contrEquiv1_symm_val (DotDims.plain M K N) K hr hs d
  · refine congrArg w (funext fun a => Fin.ext ?_)
    match a with
    | ⟨0, _⟩ => exact contrEquiv1_symm_val (DotDims.plain M K N) K hr hs d
    | ⟨1, _⟩ => rfl

end Cert.LibDot
-- ==== Proof.LibMatmulRead.lean ====
/-
  Matrix products read at an index, at the ideal values.

  A two-axis array is a function of its index; `mm A B` is the matrix product written as the explicit sum over the
  contracted coordinate. A `tpu.matmul` of plain dimension numbers (rows by contraction, contraction by columns) into a
  zero accumulator, and the host's `dot_general` of the same dimension numbers, are both `mm` of their operands: no
  rounding, no chunk order, no accumulator is left at the ideal values.
-/
import Idealize.ShloMosaic.PureOps.Ideal.Laws
import Idealize.ShloMosaic.Lib.ValueIdx
import proofs.«171577_j8967891714538_1_alg».proof.Proof.LibDot

open scoped BigOperators

noncomputable section

namespace Cert.GCN

open Idealize.ShloMosaic Idealize.ShloMosaic.ValueIdx

/-- A two-axis array of extended reals. -/
abbrev Arr (n k : Nat) := (⟨2, ![n, k]⟩ : Shape).Idx → EReal

/-- The matrix product as explicit sums over the contracted coordinate. -/
def mm {n k p : Nat} (A : Arr n k) (B : Arr k p) : Arr n p := fun i => ∑ d : Fin k, A (ix2 (i 0) d) * B (ix2 d (i 1))

theorem mm_apply {n k p : Nat} (A : Arr n k) (B : Arr k p) (r : Fin n) (c : Fin p) :
    mm A B (ix2 r c) = ∑ d : Fin k, A (ix2 r d) * B (ix2 d c) := rfl

/-- A plain `tpu.matmul` into the zero accumulator at `(r, c)`: the sum over `d` of `l[r, d] * w[d, c]`. -/
theorem matmul_plain_zero_apply {M K N : Nat} {φ₁ φ₂ : FTy} (prec : Option ContractPrecision)
    (l : FVec Ideal ⟨2, ![M, K]⟩ φ₁) (w : FVec Ideal ⟨2, ![K, N]⟩ φ₂) (r : Fin M) (c : Fin N) :
    FloatOps.matmul (DotDims.plain M K N) prec l w (constant ⟨2, ![M, N]⟩ .f32 0x00000000#32) (ix2 r c) = ∑ d : Fin K, l (ix2 r d) * w (ix2 d c) := by
  rw [Ideal.matmul_constant_zero_apply]
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun d _ => ?_
  congr 1
  · refine congrArg l (funext fun a => Fin.ext ?_)
    match a with
    | ⟨0, _⟩ => rfl
    | ⟨1, _⟩ => exact contrEquiv1_symm_val (DotDims.plain M K N) K hr hs d
  · refine congrArg w (funext fun a => Fin.ext ?_)
    match a with
    | ⟨0, _⟩ => exact contrEquiv1_symm_val (DotDims.plain M K N) K hr hs d
    | ⟨1, _⟩ => rfl

/-- The host's plain `dot_general` is `mm` of its operands, as whole arrays. -/
theorem hostDot_eq_mm {M K N : Nat} {φ₁ φ₂ : FTy} (prec : Option ContractPrecision) (sched : HostSchedule)
    (l : FVec Ideal ⟨2, ![M, K]⟩ φ₁) (w : FVec Ideal ⟨2, ![K, N]⟩ φ₂) :
    (FloatOps.dotGeneral (DotDims.plain M K N) prec sched l w : Arr M N) = mm l w := by
  funext i
  rw [eq_ix2 i]
  exact Cert.LibDot.dotGeneral_plain_apply prec sched l w (i 0) (i 1)

end Cert.GCN

end
-- ==== Proof.Dense0.lean ====
/-
  The first dense layer's launch, seen as one whole-array product.

  The launch walks the 50000 rows of its left operand in ten blocks of 5000 rows; at each block the body reads
  the 5000 x 128 block and the whole 128 x 128 right operand, multiplies them into a zero accumulator (the
  narrowing of the operands to a shorter float format is the identity on extended reals) and stores the
  5000 x 128 product as the output's block.  Row `r` of block `t` is row `5000 t + r` of the array, and every
  output row contracts the whole inner axis at once, so what block `t` writes back is block `t` of the one
  array `A · B`; the ten blocks tile the output, so after the launch the output array IS `A · B`, the same sum
  over the inner axis that the host's `dot_general` of the whole arrays is.
-/
import proofs.«171577_j8967891714538_1_alg».proof.Proof.Gen.KernelIdeal.Frame
import proofs.«171577_j8967891714538_1_alg».proof.Proof.LibMatmulRead
import Idealize.ShloMosaic.Lib.Pipeline.Value
import Idealize.ShloMosaic.Lib.ValueIdx

open scoped BigOperators

noncomputable section

namespace Cert.KernelIdeal.Dense

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The first layer: [50000, 128] by [128, 128] -/

/-- The product of the whole arrays the launch finds: entry `(i, j)` is the sum over `d` of `A[i, d] * B[d, j]`. -/
def prod0 (c : Dev nD) : S50000x128.Idx → EReal :=
  Host.dotGeneral (F := Ideal) (φ₁ := .f32) (φ₂ := .f32) (DotDims.plain 50000 128 128) none
    (V c main_arg0 : S50000x128.Idx → EReal) (V c main_arg2 : S128x128.Idx → EReal)

/-- What the body stores, at row `r` and column `k` of its block: the sum over `d` of the loaded blocks' products. -/
theorem pay0_apply (x0 : Vec Ideal S5000x128 .f32) (x1 : Vec Ideal S128x128 .f32) (r : Fin 5000) (k : Fin 128) :
    k0_pay1 x0 x1 (ix2 r k) = ∑ d : Fin 128, x0 (ix2 r d) * x1 (ix2 d k) :=
  Cert.GCN.matmul_plain_zero_apply (M := 5000) (K := 128) (N := 128) (φ₁ := .bf16) (φ₂ := .bf16) none x0 x1 r k

/-- The printed index maps over the grid: the left operand's and the output's block walk the rows with the point,
    the right operand's block stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `r`, column `d` of the left operand's block at point `t` is row `5000 t + r` of the array. -/
theorem lhs0_apply (c : Dev nD) (t : Fin cfg0.N) (r : Fin 5000) (d : Fin 128) (R : Fin 50000) (hR : R.val = t.val * 5000 + r.val) :
    (iblk0 V c 0 t : Vec Ideal S5000x128 .f32) (ix2 r d) = (V c main_arg0 : S50000x128.Idx → EReal) (ix2 R d) := by
  obtain ⟨e0, e1, -⟩ := idx0 t
  unfold iblk0
  rw [View.read_apply]
  show V c main_arg0 _ = V c main_arg0 _
  congr 1
  funext a
  apply Fin.ext
  match a with
  | ⟨0, _⟩ => show win0_0.index t 0 * 5000 + 1 * r.val = R.val; rw [e0, hR]; omega
  | ⟨1, _⟩ => show win0_0.index t 1 * 128 + 1 * d.val = d.val; rw [e1]; omega

/-- The right operand's block is the whole array at every point. -/
theorem rhs0_apply (c : Dev nD) (t : Fin cfg0.N) (d : Fin 128) (k : Fin 128) :
    (iblk0 V c 1 t : Vec Ideal S128x128 .f32) (ix2 d k) = (V c main_arg2 : S128x128.Idx → EReal) (ix2 d k) := by
  obtain ⟨-, -, e2, e3, -⟩ := idx0 t
  unfold iblk0
  rw [View.read_apply]
  show V c main_arg2 _ = V c main_arg2 _
  congr 1
  funext a
  apply Fin.ext
  match a with
  | ⟨0, _⟩ => show win0_1.index t 0 * 128 + 1 * d.val = d.val; rw [e2]; omega
  | ⟨1, _⟩ => show win0_1.index t 1 * 128 + 1 * k.val = k.val; rw [e3]; omega

/-- What point `t` writes back is block `t` of the product: row `r` of the block is row `5000 t + r` of the array,
    and both are the sum over the whole inner axis. -/
theorem flushed0_eq (c : Dev nD) (t : Fin cfg0.N) :
    (dat0 V c).flushed 2 t = ((cfg0.win 2).blk t).view.read (Elt Ideal) (prod0 V c) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨-, -, -, -, e4, e5⟩ := idx0 t
  funext j
  obtain ⟨r, k, rfl⟩ : ∃ (r : Fin 5000) (k : Fin 128), j = ix2 r k := ⟨j 0, j 1, eq_ix2 j⟩
  have hN : cfg0.N = 10 := N_0
  have hR : t.val * 5000 + r.val < 50000 := by have := t.isLt; have := r.isLt; omega
  show k0_pay1 (iblk0 V c 0 t) (iblk0 V c 1 t) (ix2 r k) = prod0 V c (((cfg0.win 2).blk t).view.emb (ix2 r k))
  have hemb : ((cfg0.win 2).blk t).view.emb (ix2 r k) = ix2 (⟨t.val * 5000 + r.val, hR⟩ : Fin 50000) k := by
    funext a
    apply Fin.ext
    match a with
    | ⟨0, _⟩ => show win0_2.index t 0 * 5000 + 1 * r.val = t.val * 5000 + r.val; rw [e4]; omega
    | ⟨1, _⟩ => show win0_2.index t 1 * 128 + 1 * k.val = k.val; rw [e5]; omega
  rw [hemb]
  refine (pay0_apply _ _ r k).trans ?_
  unfold prod0
  refine Eq.trans ?_ (Cert.LibDot.dotGeneral_plain_apply none .single _ _ (⟨t.val * 5000 + r.val, hR⟩ : Fin 50000) k).symm
  exact Finset.sum_congr rfl fun d _ => by rw [lhs0_apply V c t r d ⟨_, hR⟩ rfl, rhs0_apply V c t d k]

/-- An index of the output array is in point `t`'s block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v19).slice (win0_2.rect t)).set ↔ _
  rw [View.set_slice_whole, Rect.mem_set_unit]
  exact Iff.rfl

/-- The ten blocks tile the output: row `i` is in the block of point `i / 5000`. -/
theorem cover0 (i : S50000x128.Idx) : ∃ t : Fin cfg0.N, (cfg0.win 2).flush t = true ∧ i ∈ ((cfg0.win 2).blk t).view.set := by
  have hN : cfg0.N = 10 := N_0
  have hi0 : (i 0).val < 50000 := (i 0).isLt
  have hi1 : (i 1).val < 128 := (i 1).isLt
  have ht : (i 0).val / 5000 < cfg0.N := by omega
  refine ⟨⟨(i 0).val / 5000, ht⟩, flush0_2 _, ?_⟩
  rw [mem_blk0]
  obtain ⟨-, -, -, -, e4, e5⟩ := idx0 ⟨(i 0).val / 5000, ht⟩
  intro a
  match a with
  | ⟨0, _⟩ =>
    show win0_2.index ⟨(i 0).val / 5000, ht⟩ 0 * 5000 ≤ (i 0).val ∧ (i 0).val < win0_2.index ⟨(i 0).val / 5000, ht⟩ 0 * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ 1 * 128 ≤ (i 1).val ∧ (i 1).val < win0_2.index ⟨(i 0).val / 5000, ht⟩ 1 * 128 + 128
    rw [e5]; omega

/-- After the launch the output array holds the product of the arrays the launch found. -/
theorem product0 (c : Dev nD) : (dat0 V c).arrAt 2 cfg0.N = prod0 V c :=
  (dat0 V c).arrAt_eq_of_cover 2 (prod0 V c) (fun t _ => flushed0_eq V c t) (cover0)

end Cert.KernelIdeal.Dense

end
-- ==== Proof.Dense1.lean ====
/-
  The second dense layer's launch, seen as one whole-array product.

  The same walk as the first layer's: ten blocks of 5000 rows of the [50000, 128] left operand, each multiplied by the
  whole [128, 64] right operand into a zero accumulator and stored as the [5000, 64] block of the output (the body's
  cast of the loaded block to its own shape, and the narrowing of both operands, are the identity).  What block `t`
  writes back is block `t` of the one array `A · B`, the blocks tile the output, and so after the launch the output
  array is `A · B`: the host's `dot_general` of the whole arrays.
-/
import proofs.«171577_j8967891714538_1_alg».proof.Proof.Dense0

open scoped BigOperators

noncomputable section

namespace Cert.KernelIdeal.Dense

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The second layer: [50000, 128] by [128, 64] -/

/-- The product of the whole arrays the launch finds: entry `(i, j)` is the sum over `d` of `A[i, d] * B[d, j]`. -/
def prod1 (c : Dev nD) : S50000x64.Idx → EReal :=
  Host.dotGeneral (F := Ideal) (φ₁ := .f32) (φ₂ := .f32) (DotDims.plain 50000 128 64) none
    (V c main_v54 : S50000x128.Idx → EReal) (V c main_arg4 : S128x64.Idx → EReal)

/-- What the body stores, at row `r` and column `k` of its block: the sum over `d` of the loaded blocks' products. -/
theorem pay1_apply (x0 : Vec Ideal S5000x128 .f32) (x1 : Vec Ideal S128x64 .f32) (r : Fin 5000) (k : Fin 64) :
    k1_pay1 x0 x1 (ix2 r k) = ∑ d : Fin 128, x0 (ix2 r d) * x1 (ix2 d k) := by
  unfold k1_pay1
  simp only [shapeCast_self]
  exact Cert.GCN.matmul_plain_zero_apply (M := 5000) (K := 128) (N := 64) (φ₁ := .bf16) (φ₂ := .bf16) none x0 x1 r k

/-- The printed index maps over the grid: the left operand's and the output's block walk the rows with the point,
    the right operand's block stays. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row `r`, column `d` of the left operand's block at point `t` is row `5000 t + r` of the array. -/
theorem lhs1_apply (c : Dev nD) (t : Fin cfg1.N) (r : Fin 5000) (d : Fin 128) (R : Fin 50000) (hR : R.val = t.val * 5000 + r.val) :
    (iblk1 V c 0 t : Vec Ideal S5000x128 .f32) (ix2 r d) = (V c main_v54 : S50000x128.Idx → EReal) (ix2 R d) := by
  obtain ⟨e0, e1, -⟩ := idx1 t
  unfold iblk1
  rw [View.read_apply]
  show V c main_v54 _ = V c main_v54 _
  congr 1
  funext a
  apply Fin.ext
  match a with
  | ⟨0, _⟩ => show win1_0.index t 0 * 5000 + 1 * r.val = R.val; rw [e0, hR]; omega
  | ⟨1, _⟩ => show win1_0.index t 1 * 128 + 1 * d.val = d.val; rw [e1]; omega

/-- The right operand's block is the whole array at every point. -/
theorem rhs1_apply (c : Dev nD) (t : Fin cfg1.N) (d : Fin 128) (k : Fin 64) :
    (iblk1 V c 1 t : Vec Ideal S128x64 .f32) (ix2 d k) = (V c main_arg4 : S128x64.Idx → EReal) (ix2 d k) := by
  obtain ⟨-, -, e2, e3, -⟩ := idx1 t
  unfold iblk1
  rw [View.read_apply]
  show V c main_arg4 _ = V c main_arg4 _
  congr 1
  funext a
  apply Fin.ext
  match a with
  | ⟨0, _⟩ => show win1_1.index t 0 * 128 + 1 * d.val = d.val; rw [e2]; omega
  | ⟨1, _⟩ => show win1_1.index t 1 * 64 + 1 * k.val = k.val; rw [e3]; omega

/-- What point `t` writes back is block `t` of the product: row `r` of the block is row `5000 t + r` of the array,
    and both are the sum over the whole inner axis. -/
theorem flushed1_eq (c : Dev nD) (t : Fin cfg1.N) :
    (dat1 V c).flushed 2 t = ((cfg1.win 2).blk t).view.read (Elt Ideal) (prod1 V c) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x64) hz]
  obtain ⟨-, -, -, -, e4, e5⟩ := idx1 t
  funext j
  obtain ⟨r, k, rfl⟩ : ∃ (r : Fin 5000) (k : Fin 64), j = ix2 r k := ⟨j 0, j 1, eq_ix2 j⟩
  have hN : cfg1.N = 10 := N_1
  have hR : t.val * 5000 + r.val < 50000 := by have := t.isLt; have := r.isLt; omega
  show k1_pay1 (iblk1 V c 0 t) (iblk1 V c 1 t) (ix2 r k) = prod1 V c (((cfg1.win 2).blk t).view.emb (ix2 r k))
  have hemb : ((cfg1.win 2).blk t).view.emb (ix2 r k) = ix2 (⟨t.val * 5000 + r.val, hR⟩ : Fin 50000) k := by
    funext a
    apply Fin.ext
    match a with
    | ⟨0, _⟩ => show win1_2.index t 0 * 5000 + 1 * r.val = t.val * 5000 + r.val; rw [e4]; omega
    | ⟨1, _⟩ => show win1_2.index t 1 * 64 + 1 * k.val = k.val; rw [e5]; omega
  rw [hemb]
  refine (pay1_apply _ _ r k).trans ?_
  unfold prod1
  refine Eq.trans ?_ (Cert.LibDot.dotGeneral_plain_apply none .single _ _ (⟨t.val * 5000 + r.val, hR⟩ : Fin 50000) k).symm
  exact Finset.sum_congr rfl fun d _ => by rw [lhs1_apply V c t r d ⟨_, hR⟩ rfl, rhs1_apply V c t d k]

/-- An index of the output array is in point `t`'s block iff each coordinate is in the block's range on its axis. -/
theorem mem_blk1 (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v55).slice (win1_2.rect t)).set ↔ _
  rw [View.set_slice_whole, Rect.mem_set_unit]
  exact Iff.rfl

/-- The ten blocks tile the output: row `i` is in the block of point `i / 5000`. -/
theorem cover1 (i : S50000x64.Idx) : ∃ t : Fin cfg1.N, (cfg1.win 2).flush t = true ∧ i ∈ ((cfg1.win 2).blk t).view.set := by
  have hN : cfg1.N = 10 := N_1
  have hi0 : (i 0).val < 50000 := (i 0).isLt
  have hi1 : (i 1).val < 64 := (i 1).isLt
  have ht : (i 0).val / 5000 < cfg1.N := by omega
  refine ⟨⟨(i 0).val / 5000, ht⟩, flush1_2 _, ?_⟩
  rw [mem_blk1]
  obtain ⟨-, -, -, -, e4, e5⟩ := idx1 ⟨(i 0).val / 5000, ht⟩
  intro a
  match a with
  | ⟨0, _⟩ =>
    show win1_2.index ⟨(i 0).val / 5000, ht⟩ 0 * 5000 ≤ (i 0).val ∧ (i 0).val < win1_2.index ⟨(i 0).val / 5000, ht⟩ 0 * 5000 + 5000
    rw [e4]; show (i 0).val / 5000 * 5000 ≤ (i 0).val ∧ (i 0).val < (i 0).val / 5000 * 5000 + 5000; omega
  | ⟨1, _⟩ =>
    show win1_2.index ⟨(i 0).val / 5000, ht⟩ 1 * 64 ≤ (i 1).val ∧ (i 1).val < win1_2.index ⟨(i 0).val / 5000, ht⟩ 1 * 64 + 64
    rw [e5]; omega

/-- After the launch the output array holds the product of the arrays the launch found. -/
theorem product1 (c : Dev nD) : (dat1 V c).arrAt 2 cfg1.N = prod1 V c :=
  (dat1 V c).arrAt_eq_of_cover 2 (prod1 V c) (fun t _ => flushed1_eq V c t) (cover1)

end Cert.KernelIdeal.Dense

end
-- ==== Proof.LibRegionAsOp.lean ====
/-
  A pipelined region seen from outside is one operation on the core's buffers.

  When a region returns, the core's buffer contents are the entry contents with each of the region's arrays
  replaced by what the pipeline leaves in it (`Pipeline.withArrays`).  If every array but one ends as it was
  entered (the input windows) and the remaining one ends at the value some operation `op` — one that writes
  exactly that array's buffer — computes from the entry contents, then the region's effect on the whole
  valuation IS `op.result`.  A program that alternates host operations and such regions is then, as far as
  buffer contents go, a straight line of operations, and the contents after it are `StableHlo.after` of that
  line.  Also: the fold over a concatenation of two lines is the fold over the second after the first.
-/
import Idealize.ShloMosaic.Lib.Pipeline.FrameSuffix
import Idealize.ShloMosaic.Lib.StableHlo.Run

noncomputable section

namespace Cert.Lib

open Idealize.ShloMosaic Idealize.ShloMosaic.TcCoe Idealize.ShloMosaic.Pipeline

variable {nD : Nat} {τ : Topo} {sig : RefSig} {Val : EltTy → Type}

/-- The region's exit contents are one operation's result of its entry contents: the operation writes exactly
    the buffer of array `wo` (`hw`), the pipeline leaves in that array the operation's value (`hout`), and
    every other array of the region ends holding its entry contents (`hin`). -/
theorem withArrays_eq_result {gr W : Nat} (win : Fin W → WinSpec sig gr) (hinj : Function.Injective (arrRef win))
    (c : Dev nD) (V : Valuation τ sig Val) (A : (w : Fin W) → Buf Val ((win w).arr.view.loc (c.tc : Thread nD τ)))
    (op : HloOp τ sig Val) (wo : Fin W)
    (hw : op.writes = {Proc.devRef .tc (arrRef win wo)})
    (hout : A wo = op.result V (Proc.devRef .tc (arrRef win wo)))
    (hin : ∀ w, w ≠ wo → A w = V (Proc.devRef .tc (arrRef win w))) :
    withArrays win c V A = op.result V := by
  funext b
  by_cases h : ∃ w, Proc.devRef (τ := τ) .tc (arrRef win w) = b
  · obtain ⟨w, rfl⟩ := h
    rw [withArrays_arr win hinj]
    by_cases hwo : w = wo
    · subst hwo; exact hout
    · rw [hin w hwo, op.result_of_not_mem V]
      rw [hw, Finset.mem_singleton]
      exact fun e => hwo (hinj (Proc.devRef_injective _ e))
  · have hb : b ∉ op.writes := by
      rw [hw, Finset.mem_singleton]
      exact fun e => h ⟨wo, e.symm⟩
    rw [op.result_of_not_mem V hb]
    unfold withArrays
    rw [dif_neg h]

/-- The contents after two lines run one after the other. -/
theorem after_append (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih (op.result V)

/-- One operation as a line. -/
theorem after_singleton (op : HloOp τ sig Val) (V : Valuation τ sig Val) :
    StableHlo.after [op] V = op.result V := rfl

end Cert.Lib

end
-- ==== Proof.RegionOps.lean ====
/-
  Each launch is one matrix product on the core's buffer contents.

  Between its entry and its exit a launch changes the buffer contents in one place only: its output array ends at the
  product of its two input arrays as it found them (the block-by-block write-backs tile it), and its input arrays end
  as they were.  So the contents at a launch's exit are the contents at its entry after ONE host-style operation, a
  `dot_general` of the whole arrays written into the output's buffer, and the contents when @main returns are those of
  a straight line of host operations run from the launch memory.
-/
import proofs.«171577_j8967891714538_1_alg».proof.Proof.Dense1
import proofs.«171577_j8967891714538_1_alg».proof.Proof.LibRegionAsOp

noncomputable section

namespace Cert.KernelIdeal.Dense

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The first layer's product as an operation on buffers: reads the node features and the first weight matrix,
    writes the first launch's output array. -/
def mmOp0 : HloOp τ sig (Elt Ideal) :=
  StableHlo.binary main_arg0 main_arg2 main_v19
    ((fun l r => Host.dotGeneral (F := Ideal) (φ₁ := .f32) (φ₂ := .f32) (DotDims.plain 50000 128 128) none l r) :
      (⟨S50000x128, .f32⟩ : BufTy).Contents (Elt Ideal) → (⟨S128x128, .f32⟩ : BufTy).Contents (Elt Ideal) → (⟨S50000x128, .f32⟩ : BufTy).Contents (Elt Ideal))

/-- The second layer's product as an operation on buffers: reads the hidden activations and the second weight
    matrix, writes the second launch's output array. -/
def mmOp1 : HloOp τ sig (Elt Ideal) :=
  StableHlo.binary main_v54 main_arg4 main_v55
    ((fun l r => Host.dotGeneral (F := Ideal) (φ₁ := .f32) (φ₂ := .f32) (DotDims.plain 50000 128 64) none l r) :
      (⟨S50000x128, .f32⟩ : BufTy).Contents (Elt Ideal) → (⟨S128x64, .f32⟩ : BufTy).Contents (Elt Ideal) → (⟨S50000x64, .f32⟩ : BufTy).Contents (Elt Ideal))

/-- The buffer contents at the first launch's exit are its entry contents after the first product. -/
theorem W3_eq (c : Dev nD) : W3 m ρ c = (mmOp0).result (W2 m ρ c) := by
  unfold W3 mmOp0
  refine Cert.Lib.withArrays_eq_result spec0 launch0.win.arr_inj c (W2 m ρ c) _ _ 2 ?_ ?_ ?_
  · exact StableHlo.binary_writes ..
  · refine (product0 (V2 m ρ) c).trans ?_
    unfold prod0
    exact (StableHlo.binary_result main_arg0 main_arg2 main_v19 _ _ _ _ (W2 m ρ c)).symm
  · intro w hw
    match w, hw with
    | ⟨0, _⟩, _ => exact ((dat0 (V2 m ρ) c).arrAt_in 0 rfl _).trans (A_eq0 (V2 m ρ) c 0)
    | ⟨1, _⟩, _ => exact ((dat0 (V2 m ρ) c).arrAt_in 1 rfl _).trans (A_eq0 (V2 m ρ) c 1)
    | ⟨2, _⟩, h => exact absurd rfl h

/-- The buffer contents at the second launch's exit are its entry contents after the second product. -/
theorem W6_eq (c : Dev nD) : W6 m ρ c = (mmOp1).result (W5 m ρ c) := by
  unfold W6 mmOp1
  refine Cert.Lib.withArrays_eq_result spec1 launch1.win.arr_inj c (W5 m ρ c) _ _ 2 ?_ ?_ ?_
  · exact StableHlo.binary_writes ..
  · refine (product1 (V5 m ρ) c).trans ?_
    unfold prod1
    exact (StableHlo.binary_result main_v54 main_arg4 main_v55 _ _ _ _ (W5 m ρ c)).symm
  · intro w hw
    match w, hw with
    | ⟨0, _⟩, _ => exact ((dat1 (V5 m ρ) c).arrAt_in 0 rfl _).trans (A_eq1 (V5 m ρ) c 0)
    | ⟨1, _⟩, _ => exact ((dat1 (V5 m ρ) c).arrAt_in 1 rfl _).trans (A_eq1 (V5 m ρ) c 1)
    | ⟨2, _⟩, h => exact absurd rfl h

/-- The contents when @main returns: the launch memory after the host operations before the first launch, the first
    product, the host operations between the launches, the second product and the host operations after it. -/
theorem W7_eq (c : Dev nD) :
    W7 m ρ c = StableHlo.after hostOps2 ((mmOp1).result (StableHlo.after hostOps1_1 (StableHlo.after hostOps1
      ((mmOp0).result (StableHlo.after hostOps0_1 (StableHlo.after hostOps0 (W0 m ρ c))))))) := by
  show StableHlo.after hostOps2 (W6 m ρ c) = _
  rw [W6_eq]
  show StableHlo.after hostOps2 ((mmOp1).result (StableHlo.after hostOps1_1 (StableHlo.after hostOps1 (W3 m ρ c)))) = _
  rw [W3_eq]

end Cert.KernelIdeal.Dense

end
-- ==== Proof.LibCat2.lean ====
/-
  A concatenate of two arrays with the operands as plain arguments.

  The printed `concatenate t a [⟨s₁, x₁⟩, ⟨s₂, x₂⟩] h` carries its operands inside a list whose shapes the proof `h`
  speaks about, so a rewriting pass that must keep `h`'s type in step will not rewrite under the list.  `cat2` is the same
  array with `x₁`, `x₂` as ordinary arguments after `h` (whose type mentions the shapes only); `cat2_fold` is the
  definitional equation between the two, oriented for folding the printed form.
-/
import Idealize.ShloMosaic.PureOps

namespace Cert.Lib

open Idealize.ShloMosaic

/-- `x₁` and `x₂` joined along axis `a` into shape `t`. -/
def cat2 {α : Type} (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

/-- The printed two-operand concatenate is `cat2` of its operands. -/
theorem cat2_fold {α : Type} (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = cat2 t a s₁ s₂ h x₁ x₂ := rfl

end Cert.Lib
-- ==== Proof.Bridge.lean ====
/-
  The two programs compute one function.

  The idealized kernel's buffer contents when @main returns are those of a straight line of host operations run from
  the launch memory, in which each launch stands as one `dot_general` of whole arrays (RegionOps).  Read at the result
  buffer, operation by operation, that line composes to a term of the argument arrays; the reference's run ends at the
  composed term of its own operations.  The two terms are the same tree: the slices of the edge list, the self loops
  appended, the negative indices wrapped, the in-degree by a scatter-add of ones, its inverse square root where
  positive, the two gathers of it multiplied, the rows of the product gathered and scaled, the scatter-add into zeros,
  the bias, the rectifier, and the same again for the second layer.  The kernel computes the inverse square roots of
  the degrees once and the reference once per layer, from the same operations of the same argument, and a launch's
  product is the reference's `dot_general` (its dimension record is the plain rows-by-columns one); no law of the
  extended reals is used, and the finiteness of the inputs is not needed.
-/
import proofs.«171577_j8967891714538_1_alg».proof.Proof.RegionOps
import proofs.«171577_j8967891714538_1_alg».proof.Proof.RefRun
import proofs.«171577_j8967891714538_1_alg».proof.Proof.LibCat2

noncomputable section

namespace Cert.Proof.Bridge

open Idealize.ShloMosaic Idealize.ShloMosaic.TcCoe Idealize.SL.Sem Idealize.ShloMosaic.StableHlo

set_option maxRecDepth 16384 in
set_option maxHeartbeats 60000000 in
/-- From memories that agree on the arguments, the reference's result term is what the kernel's result buffer holds
    when @main returns. -/
theorem result_eq
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    (Cert.ReferenceIdeal.ValueP.res_main_v100 (F := Ideal) m' c : Cert.KernelIdeal.S50000x64.Idx → EReal)
      = Cert.KernelIdeal.Gen.W7 m ρ c (Proc.devRef .tc Cert.KernelIdeal.main_v89) := by
  rw [Cert.KernelIdeal.Dense.W7_eq]
  unfold Cert.KernelIdeal.Dense.mmOp0 Cert.KernelIdeal.Dense.mmOp1 Cert.ReferenceIdeal.ValueP.res_main_v100
  rw [h0, h1, h2, h3, h4, h5]
  symm
  -- read the kernel's line operation by operation, and on both sides write each two-operand concatenate with its
  -- operands as plain arguments, so that the reading goes on under it
  simp (disch := decide) only [after_cons, after_nil,
    nullary_result', unary_result', binary_result', ternary_result', quaternary_result', reshape_result', nary4_result',
    nary_result', unaryIndexed_result', binaryIndexed_result',
    nullary_result_ne', unary_result_ne', binary_result_ne', ternary_result_ne', quaternary_result_ne', reshape_result_ne',
    nary_result_ne', unaryIndexed_result_ne', binaryIndexed_result_ne', Cert.Lib.cat2_fold]
  -- the launch memory read at an argument's buffer is that argument
  have e0 : Cert.KernelIdeal.Gen.W0 m ρ c (Proc.devRef .tc Cert.KernelIdeal.main_arg0) = m ((c.tc : Thread Cert.KernelIdeal.nD Cert.KernelIdeal.τ).loc Cert.KernelIdeal.main_arg0) := rfl
  have e1 : Cert.KernelIdeal.Gen.W0 m ρ c (Proc.devRef .tc Cert.KernelIdeal.main_arg1) = m ((c.tc : Thread Cert.KernelIdeal.nD Cert.KernelIdeal.τ).loc Cert.KernelIdeal.main_arg1) := rfl
  have e2 : Cert.KernelIdeal.Gen.W0 m ρ c (Proc.devRef .tc Cert.KernelIdeal.main_arg2) = m ((c.tc : Thread Cert.KernelIdeal.nD Cert.KernelIdeal.τ).loc Cert.KernelIdeal.main_arg2) := rfl
  have e3 : Cert.KernelIdeal.Gen.W0 m ρ c (Proc.devRef .tc Cert.KernelIdeal.main_arg3) = m ((c.tc : Thread Cert.KernelIdeal.nD Cert.KernelIdeal.τ).loc Cert.KernelIdeal.main_arg3) := rfl
  have e4 : Cert.KernelIdeal.Gen.W0 m ρ c (Proc.devRef .tc Cert.KernelIdeal.main_arg4) = m ((c.tc : Thread Cert.KernelIdeal.nD Cert.KernelIdeal.τ).loc Cert.KernelIdeal.main_arg4) := rfl
  have e5 : Cert.KernelIdeal.Gen.W0 m ρ c (Proc.devRef .tc Cert.KernelIdeal.main_arg5) = m ((c.tc : Thread Cert.KernelIdeal.nD Cert.KernelIdeal.τ).loc Cert.KernelIdeal.main_arg5) := rfl
  -- and a value handed through an inlined call's typed reference is the value (a cast along a reflexive equation)
  simp only [e0, e1, e2, e3, e4, e5, TRef.toBuf, TRef.ofBuf, cast_eq]
  -- what is left on the two sides is one tree of operations of the arguments, each program naming its own copy of the
  -- same dimension records
  rfl

end Cert.Proof.Bridge

end
-- ==== Proof.lean ====
/-
  A two-layer graph convolution whose two dense products are kernel launches, against the same network on the host.

  Both programs compute, for node features X, edges (s, d) with one self loop per node appended and negative indices
  wrapped, weights W1, W2 and biases b1, b2:
      deg  = the number of edges into each node,           dinv = deg^(-1/2) where deg > 0, else 0,
      conv(H, b) = scatter-add over the edges of  H[s] * (dinv[s] * dinv[d])  into the rows d,  plus b,
      result = conv( max(conv(X · W1, b1), 0) · W2, b2 ).
  The kernel forms X · W1 and the hidden activations times W2 in two launches, each walking the 50000 rows in ten
  blocks of 5000 and multiplying a block by the whole weight matrix into a zero accumulator (its operands narrowed to
  a shorter float format, which is the identity on extended reals); everything else it does on the host, with the
  operations the reference uses, computing dinv once where the reference computes it once per layer.

  * A launch's output array ends at the product of the whole arrays it found (Dense0, Dense1): what a block writes
    back is that block of the product, and the ten blocks tile the output.
  * So each launch acts on the buffer contents as ONE `dot_general` (RegionOps), and the kernel's buffer contents
    when @main returns are those of a straight line of host operations.
  * Every execution of the kernel ends with its result buffer at those contents and its arguments unchanged
    (KernelRun); every execution of the reference ends with its result at the composed term of its operations
    (RefRun).
  * From memories agreeing on the arguments the two are the same term of the arguments (Bridge): no law of the
    extended reals is needed, so the finiteness of the inputs is never used.
  The idealization rewrote nothing, so there is nothing to preserve; the frames of the two kernel programs are the
  generated ones, and the reference's frame is its run with the result dropped.
-/
import proofs.«171577_j8967891714538_1_alg».proof.Defs
import proofs.«171577_j8967891714538_1_alg».proof.Proof.Gen.Kernel
import proofs.«171577_j8967891714538_1_alg».proof.Proof.Gen.Kernel.Skeleton
import proofs.«171577_j8967891714538_1_alg».proof.Proof.Gen.Kernel.Launch
import proofs.«171577_j8967891714538_1_alg».proof.Proof.Gen.Kernel.Points
import proofs.«171577_j8967891714538_1_alg».proof.Proof.Gen.Kernel.Frame
import proofs.«171577_j8967891714538_1_alg».proof.Proof.Gen.KernelIdeal
import proofs.«171577_j8967891714538_1_alg».proof.Proof.Gen.KernelIdeal.Skeleton
import proofs.«171577_j8967891714538_1_alg».proof.Proof.Gen.KernelIdeal.Launch
import proofs.«171577_j8967891714538_1_alg».proof.Proof.Gen.KernelIdeal.Points
import proofs.«171577_j8967891714538_1_alg».proof.Proof.Gen.KernelIdeal.Frame
import proofs.«171577_j8967891714538_1_alg».proof.Proof.Gen.ReferenceIdeal
import proofs.«171577_j8967891714538_1_alg».proof.Proof.Gen.Pre_finite_inputs
import proofs.«171577_j8967891714538_1_alg».proof.Proof.KernelRun
import proofs.«171577_j8967891714538_1_alg».proof.Proof.RefRun
import proofs.«171577_j8967891714538_1_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both idealized programs end with the same result array: the kernel's
    result buffer at the contents its segments end at, the reference's at its composed term, one term of the
    arguments. -/
theorem algebraic : Cert.algebraic_KernelIdeal_ReferenceIdeal := by
  intro m ρ m' ρ' _ hagree
  refine ⟨fun c => Cert.KernelIdeal.Gen.W7 m ρ c (Proc.devRef .tc Cert.KernelIdeal.main_v89),
    Cert.KernelIdeal.Named.run (F := Ideal) m ρ, ?_⟩
  refine (θ_run Cert.ReferenceIdeal.defs _ _).mono (fun _ h c => ⟨(h c).1.trans ?_, (h c).2⟩)
    (Cert.ReferenceIdeal.ValueP.run (F := Ideal) m' ρ')
  exact Bridge.result_eq m ρ m' c (hagree c).1 (hagree c).2.1 (hagree c).2.2.1 (hagree c).2.2.2.1
    (hagree c).2.2.2.2.1 (hagree c).2.2.2.2.2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
